-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64x32 : Shape := ⟨2, ![64, 32]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x64 .f32) (main_arg3 : FVec F S64x32 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64x32 : Shape := ⟨2, ![64, 32]⟩
abbrev S10000x64 : Shape := ⟨2, ![10000, 64]⟩
abbrev S_ : Shape := ⟨0, ![]⟩
abbrev S10000x32 : Shape := ⟨2, ![10000, 32]⟩
abbrev S10000 : Shape := ⟨1, ![10000]⟩
abbrev S10000x1 : Shape := ⟨2, ![10000, 1]⟩
abbrev S1x10000 : Shape := ⟨2, ![1, 10000]⟩
abbrev S200x10000 : Shape := ⟨2, ![200, 10000]⟩
abbrev S200x1 : Shape := ⟨2, ![200, 1]⟩
abbrev S200 : Shape := ⟨1, ![200]⟩

abbrev nBuf : Space → Nat
  | .hbm => 18
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64x32, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x32, .f32⟩
  | .hbm, ⟨10, _⟩ => ⟨S10000x32, .f32⟩
  | .hbm, ⟨11, _⟩ => ⟨S10000x32, .f32⟩
  | .hbm, ⟨12, _⟩ => ⟨S_, .f32⟩
  | .hbm, ⟨13, _⟩ => ⟨S10000, .f32⟩
  | .hbm, ⟨14, _⟩ => ⟨S10000x10000, .f32⟩
  | .hbm, ⟨15, _⟩ => ⟨S10000x1, .f32⟩
  | .hbm, ⟨16, _⟩ => ⟨S1x10000, .f32⟩
  | .hbm, ⟨17, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S200x1, .f32⟩
  | .local _ .vmem, ⟨3, _⟩ => ⟨S200x1, .f32⟩
  | .local _ .vmem, ⟨4, _⟩ => ⟨S1x10000, .f32⟩
  | .local _ .vmem, ⟨5, _⟩ => ⟨S200x10000, .f32⟩
  | .local _ .vmem, ⟨6, _⟩ => ⟨S200x10000, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10000x64 : S_.BroadcastsInDim S10000x64 (![] : Fin 0 → Fin S10000x64.rank)
  reducesTo_S10000x32_S10000_d1 : S10000x32.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S200x1_S200x10000 : S200x1.Broadcasts S200x10000
  broadcasts_S1x10000_S200x10000 : S1x10000.Broadcasts S200x10000
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  reduces_S200x10000_S200 : S200x10000.Reduces [1] S200
  shapeCasts_S200_S200x1 : S200.ShapeCasts S200x1
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S10000x32_S10000x10000_1_1_0_0_n_n_wf : DotDims.WF S10000x32 S10000x32 S10000x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S10000x1.size a
  hwx0_1 : ∀ i : grid0.Coords, EltTy.bits .f32 = 32 ∨ (Rect.block (s := S10000x1) S200x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S10000x32_S10000x10000_1_1_0_0_n_n : DotDims S10000x32 S10000x32 S10000x10000 where
  lhsContracting := [1]
  rhsContracting := [1]
  lhsNonContracting := [0]
  rhsNonContracting := [0]
  lhsBatch := []
  rhsBatch := []
  wf := dot_S10000x32_S10000x32_S10000x10000_1_1_0_0_n_n_wf

abbrev win0_0 : Pipeline.Window sig grid0 :=
  Pipeline.Window.ofSpec (Memref.whole main_v7) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S200x10000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64x32 : Shape := ⟨2, ![64, 32]⟩
abbrev S10000x64 : Shape := ⟨2, ![10000, 64]⟩
abbrev S_ : Shape := ⟨0, ![]⟩
abbrev S10000x32 : Shape := ⟨2, ![10000, 32]⟩
abbrev S10000 : Shape := ⟨1, ![10000]⟩
abbrev S10000x1 : Shape := ⟨2, ![10000, 1]⟩
abbrev S1x10000 : Shape := ⟨2, ![1, 10000]⟩
abbrev S32x10000 : Shape := ⟨2, ![32, 10000]⟩

abbrev nBuf : Space → Nat
  | .hbm => 46
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64x32, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x32, .f32⟩
  | .hbm, ⟨10, _⟩ => ⟨S10000x32, .f32⟩
  | .hbm, ⟨11, _⟩ => ⟨S10000x32, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S1x10000, .f32⟩
  | .hbm, ⟨16, _⟩ => ⟨S10000x10000, .f32⟩
  | .hbm, ⟨17, _⟩ => ⟨S10000x10000, .f32⟩
  | .hbm, ⟨18, _⟩ => ⟨S10000x10000, .f32⟩
  | .hbm, ⟨19, _⟩ => ⟨S32x10000, .f32⟩
  | .hbm, ⟨20, _⟩ => ⟨S10000x10000, .f32⟩
  | .hbm, ⟨21, _⟩ => ⟨S_, .f32⟩
  | .hbm, ⟨22, _⟩ => ⟨S10000x10000, .f32⟩
  | .hbm, ⟨23, _⟩ => ⟨S10000x10000, .f32⟩
  | .hbm, ⟨24, _⟩ => ⟨S10000x10000, .f32⟩
  | .hbm, ⟨25, _⟩ => ⟨S_, .f32⟩
  | .hbm, ⟨26, _⟩ => ⟨S10000x10000, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x10000, .f32⟩
  | .hbm, ⟨36, _⟩ => ⟨S10000x10000, .f32⟩
  | .hbm, ⟨37, _⟩ => ⟨S10000x10000, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x10000, .f32⟩
  | .hbm, ⟨42, _⟩ => ⟨S10000x10000, .f32⟩
  | .hbm, ⟨43, _⟩ => ⟨S_, .f32⟩
  | .hbm, ⟨44, _⟩ => ⟨S10000x10000, .f32⟩
  | .hbm, ⟨45, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_cst : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  reducesTo_S10000x32_S10000_d1 : S10000x32.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x32_S32x10000_1_0 : S10000x32.Transposes [1, 0] S32x10000
  bcast_S_S10000x10000 : S_.BroadcastsInDim S10000x10000 (![] : Fin 0 → Fin S10000x10000.rank)
  reducesTo_S10000x10000_S10000_d1 : S10000x10000.ReducesTo [1] S10000
  bcast_S_S10000 : S_.BroadcastsInDim S10000 (![] : Fin 0 → Fin S10000.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibRowForms.lean ====
/-
  Three layout forms of a kernel body read at an index given by coordinates, general in the extents: a one-row
  matrix repeated down the rows ([1, b] → [a, b]), one column cut out of a matrix ([a, b] → [a, 1] at a column
  offset), and a one-hot row built from a lane counter (the counter compared with a constant, widened, and converted
  to a float at the ideal values): one where the lane is the constant, zero elsewhere.
-/
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowForms

open Idealize.ShloMosaic Idealize.ShloMosaic.ValueIdx

variable {α : Type}

/-- A `[1, b]` row broadcast to `[a, b]` reads, at `(p, c)`, the row's entry of column `c` (its unit coordinate
    written `u`, whatever it is). -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

/-- The column at offset `o` cut out of an `[a, b]` matrix reads, at `(p, u)`, the matrix at `(p, o)`. -/
theorem sliceColumn_apply {a b : ℕ} (o : ℕ) (ho : o < b) (x : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] x h (ix2 p u) = x (ix2 p ⟨o, ho⟩) := by
  refine extractStridedSlice_apply ![0, o] x h (ix2 p u) (ix2 p ⟨o, ho⟩) fun ax => ?_
  match ax with
  | ⟨0, _⟩ => show p.val = 0 + p.val; omega
  | ⟨1, _⟩ => show o = o + u.val; omega

/-- A lane counter below `n ≤ 2³²` compared with the constant `j < n`, widened to 32 bits and converted: one at
    lane `j`, zero elsewhere. -/
theorem oneHot_word (i j : ℕ) (hi : i < 2 ^ 32) (hj : j < 2 ^ 32) :
    FloatOps.sitofp (F := Ideal) .f32 ((IntOp.cmpi .eq (BitVec.ofNat 32 i) (BitVec.ofNat 32 j)).setWidth 32)
      = if i = j then (1 : EReal) else 0 := by
  show ((((BitVec.ofBool (BitVec.ofNat 32 i == BitVec.ofNat 32 j)).setWidth 32).toInt : ℝ) : EReal) = _
  rw [toInt_setWidth_bit]
  by_cases h : i = j
  · subst h
    rw [if_pos rfl, beq_self_eq_true]
    simp
  · have e : (BitVec.ofNat 32 i == BitVec.ofNat 32 j) = false := by
      rw [beq_eq_false_iff_ne]
      intro e
      apply h
      have := congrArg BitVec.toNat e
      rw [BitVec.toNat_ofNat, BitVec.toNat_ofNat, Nat.mod_eq_of_lt hi, Nat.mod_eq_of_lt hj] at this
      exact this
    rw [e, if_neg h]
    simp

end Cert.LibRowForms

end
-- ==== Proof.LibRowMin.lean ====
/-
  Row minima at the ideal values, where a float is an extended real. A fold of `min` from the top element over a
  finite set is the infimum over it; a `minimumf` lane reduction of an `[n0, n1]` matrix from an accumulator that
  denotes `+∞`, read at a row, is therefore the infimum of the row's entries; and negation, which reverses the
  order of the extended reals, carries an infimum to the supremum of the negatives. General in the extents.
-/
import Idealize.ShloMosaic.Lib.ValueIdx
import Idealize.ShloMosaic.Lib.Pipeline.Value
import Idealize.ShloMosaic.PureOps
import Idealize.ShloMosaic.PureOps.Ideal.Laws
import Mathlib.Data.Finset.Lattice.Fold
import Mathlib.Data.Fintype.Lattice

noncomputable section

namespace RowMin

open Idealize.ShloMosaic Idealize.ShloMosaic.ValueIdx

/-! ## Infima: a fold of `min` from `⊤` -/

section Inf
variable {α : Type*} [LinearOrder α] [OrderTop α]

/-- A fold of `min` from `⊤` over a finite set is the infimum over it. -/
theorem fold_min_top_eq_inf {ι : Type*} (s : Finset ι) (f : ι → α) : s.fold min ⊤ f = s.inf f := by
  induction s using Finset.cons_induction with
  | empty => rw [Finset.fold_empty, Finset.inf_empty]
  | cons a s ha ih => rw [Finset.fold_cons, Finset.inf_cons, ih]

end Inf

/-! ## Negation reverses the order of the extended reals -/

/-- The negative of the smaller of two extended reals is the larger of their negatives. -/
theorem neg_min (a b : EReal) : -(min a b) = max (-a) (-b) := by
  rcases le_total a b with h | h
  · rw [min_eq_left h, max_eq_left (EReal.neg_le_neg_iff.mpr h)]
  · rw [min_eq_right h, max_eq_right (EReal.neg_le_neg_iff.mpr h)]

/-- The negative of an infimum over a finite set is the supremum of the negatives (the empty infimum `+∞` goes to
    the empty supremum `-∞`). -/
theorem neg_inf_eq_sup_neg {ι : Type*} (s : Finset ι) (f : ι → EReal) : -(s.inf f) = s.sup fun k => -f k := by
  induction s using Finset.cons_induction with
  | empty => rw [Finset.inf_empty, Finset.sup_empty, EReal.neg_top]
  | cons a s ha ih =>
    rw [Finset.inf_cons, Finset.sup_cons, ← ih]
    exact neg_min _ _

/-! ## A row minimum -/

/-- Over the second axis of a rank-2 shape, the source index above row `r` with coordinate `k` inserted is
    `(r, k)`. -/
theorem lift_axis1 {n0 n1 : Nat} (h : (⟨2, ![n0, n1]⟩ : Shape).Reduces [1] ⟨1, ![n0]⟩) (r : Fin n0) (k : Fin n1) :
    h.lift (ix1 r) k = ix2 r k := by
  funext a
  match a with
  | ⟨0, _⟩ => exact Fin.ext rfl
  | ⟨1, _⟩ => exact Fin.ext rfl

/-- A ROW MINIMUM at the ideal values: a `minimumf` reduction of an `[n0, n1]` vector over its second axis, from an
    accumulator pattern that denotes `⊤`, is at row `r` the infimum of the row's entries. -/
theorem multiReduction_minimumf_rows {φ : FTy} {n0 n1 : Nat} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.minimumf.neutral φ hφ) (htop : Ideal.ofBits φ acc = ⊤) (r : Fin n0) :
    multiReduction .minimumf [1] ⟨1, ![n0]⟩ src acc h hφ hacc (ix1 r)
      = Finset.univ.inf fun k : Fin n1 => src (ix2 r k) := by
  rw [multiReduction_minimumf_eq_fold]
  refine (h.fold_filter_drop_single _ _ src (ix1 r)).trans ?_
  have hb : FloatOps.ofBits (F := Ideal) φ acc = (⊤ : EReal) := htop
  rw [hb]
  show (Finset.univ : Finset (Fin ((⟨2, ![n0, n1]⟩ : Shape).size 1))).fold min (⊤ : EReal) (src ∘ h.lift (ix1 r)) = _
  rw [fold_min_top_eq_inf]
  show (Finset.univ : Finset (Fin n1)).inf (fun k => src (h.lift (ix1 r) k)) = _
  refine Finset.inf_congr rfl fun k _ => ?_
  rw [lift_axis1]

end RowMin

end
-- ==== Proof.SoftRows.lean ====
/-
  The row-wise specification both programs meet, over the extended reals.

  Given squared row norms `sq` and a Gram matrix `g` of `n` points, the clamped squared distance of points `i`
  and `k` is `cell (sq i) (sq k) (g i k) = max ((sq i + sq k) - two * g i k) zero`. A row `d` of such distances is
  turned into weights in one of two spellings: `softMin` subtracts every distance FROM the row's smallest one before
  exponentiating and normalising; `softMax` is the textbook softmax of a row `x`, which subtracts the row's largest
  entry (guarded by `-∞`) from every entry. On the row of NEGATED distances the two agree, because negation carries
  the smallest distance to the largest negative and `-d - (-m) = m - d` on the extended reals (addition there is
  commutative and negation an involution; nothing has to be finite).
-/
import Idealize.ShloMosaic.PureOps.Ideal
import proofs.«120462_g1030792151698_week1_w1_993_13_alg».proof.Proof.LibRowMin

noncomputable section

open scoped BigOperators

namespace SoftRows

open Idealize.ShloMosaic

/-- The words of the constants both programs use, as the extended reals their patterns denote: the factor 2, the clamp
    at 0, and the constant added to every weight. -/
abbrev two : EReal := Ideal.ofBits .f32 0x40000000#32
abbrev zero : EReal := Ideal.ofBits .f32 0x00000000#32
abbrev cst : EReal := Ideal.ofBits .f32 0x2EDBE6FF#32

/-- The pattern of `+∞` and of `-∞`. -/
theorem ofBits_posInf : Ideal.ofBits .f32 0x7F800000#32 = (⊤ : EReal) := by
  simp [Ideal.ofBits, Ideal.ieee]
theorem ofBits_negInf : Ideal.ofBits .f32 0xFF800000#32 = (⊥ : EReal) := by
  simp [Ideal.ofBits, Ideal.ieee]

/-- The clamped squared distance of two points from their squared norms `a`, `b` and their inner product `g`. -/
def cell (two zero a b g : EReal) : EReal := max ((a + b) - two * g) zero

/-- Weights of a row `d` of distances, every distance subtracted from the row's infimum: entry `j` is
    `exp (inf d - d j) / ∑ k, exp (inf d - d k) + c`. -/
def softMin {b : ℕ} (c : EReal) (d : Fin b → EReal) (j : Fin b) : EReal :=
  Ideal.div (Ideal.exp (Finset.univ.inf d - d j)) (∑ k, Ideal.exp (Finset.univ.inf d - d k)) + c

/-- The softmax of a row `x` with the row's supremum (guarded by `⊥`) subtracted from every entry, plus `c`. -/
def softMax {b : ℕ} (c : EReal) (x : Fin b → EReal) (j : Fin b) : EReal :=
  Ideal.div (Ideal.exp (x j - max ⊥ (Finset.univ.sup x))) (∑ k, Ideal.exp (x k - max ⊥ (Finset.univ.sup x))) + c

/-- On the negated distances the softmax is `softMin` of the distances: the guarded supremum of the negatives is the
    negative of the infimum, and `-d k - (-m) = m - d k`. -/
theorem softMax_neg {b : ℕ} (c : EReal) (d : Fin b → EReal) (j : Fin b) :
    softMax c (fun k => -d k) j = softMin c d j := by
  have hM : max ⊥ (Finset.univ.sup fun k => -d k) = -(Finset.univ.inf d) := by
    rw [max_eq_right bot_le, RowMin.neg_inf_eq_sup_neg]
  have hx : ∀ k, -d k - max ⊥ (Finset.univ.sup fun k => -d k) = Finset.univ.inf d - d k := by
    intro k
    rw [hM, sub_eq_add_neg, neg_neg, add_comm, ← sub_eq_add_neg]
  unfold softMax softMin
  simp only [hx]

/-- The whole result: row `i` of the weights of the clamped distances of point `i` to every point. -/
def pairSoft {n : ℕ} (two zero c : EReal) (sq : Fin n → EReal) (g : Fin n → Fin n → EReal) (i j : Fin n) : EReal :=
  softMin c (fun k => cell two zero (sq i) (sq k) (g i k)) j

end SoftRows

end
-- ==== Proof.LibSoftBody.lean ====
/-
  A kernel body that turns a block of a Gram matrix and the squared norms of its rows and columns into row-wise
  weights, read at an entry, at the ideal values (a float is an extended real); general in the block's extents
  `[a, b]`.

  The body forms the clamped squared distances `d = max ((p + q) - 2 * g) 0` from a column `p` of `a` squared norms
  (an `[a, 1]` block repeated along the lanes), a row `q` of `b` squared norms (a `[1, b]` block repeated down the
  rows) and the `[a, b]` block `g` of inner products; takes each row's minimum `m` (a `minimumf` lane reduction from
  `+∞`, kept as a column); exponentiates `m - d`; sums each row (a lane sum from zero, kept as a column); divides and
  adds the constant `c`. At entry `(r, j)` this is `SoftRows.softMin c` of row `r` of the distances, at `j`.
-/
import Idealize.ShloMosaic.Lib.Pipeline.Value
import Idealize.ShloMosaic.Lib.ValueIdx
import Idealize.ShloMosaic.PureOps.Ideal.Laws
import proofs.«120462_g1030792151698_week1_w1_993_13_alg».proof.Proof.LibKernelIdx
import proofs.«120462_g1030792151698_week1_w1_993_13_alg».proof.Proof.LibRowForms
import proofs.«120462_g1030792151698_week1_w1_993_13_alg».proof.Proof.LibRowMin
import proofs.«120462_g1030792151698_week1_w1_993_13_alg».proof.Proof.SoftRows

noncomputable section

open scoped BigOperators

namespace SoftBody

open Idealize.ShloMosaic Idealize.ShloMosaic.ValueIdx

open SoftRows (two zero cst ofBits_posInf)

section Body
variable {a b : ℕ}
variable (hc0 : (⟨2, ![a, 1]⟩ : Shape).ShapeCasts ⟨2, ![a, 1]⟩) (hb0 : (⟨2, ![a, 1]⟩ : Shape).Broadcasts ⟨2, ![a, b]⟩)
  (hc1 : (⟨2, ![1, b]⟩ : Shape).ShapeCasts ⟨2, ![1, b]⟩) (hb1 : (⟨2, ![1, b]⟩ : Shape).Broadcasts ⟨2, ![a, b]⟩)
  (hc2 : (⟨2, ![a, b]⟩ : Shape).ShapeCasts ⟨2, ![a, b]⟩)
  (hr : (⟨2, ![a, b]⟩ : Shape).Reduces [1] ⟨1, ![a]⟩) (hc3 : (⟨1, ![a]⟩ : Shape).ShapeCasts ⟨2, ![a, 1]⟩)
  (hφ : FKind.Formats .f32) (hmin : (0x7F800000#32 : BitVec 32) = FKind.minimumf.neutral .f32 hφ)
  (hadd : (0x00000000#32 : BitVec 32) = 0x00000000#32)
  (P0 : FVec Ideal ⟨2, ![a, 1]⟩ .f32) (P1 : FVec Ideal ⟨2, ![1, b]⟩ .f32) (P2 : FVec Ideal ⟨2, ![a, b]⟩ .f32)

/-- The block of clamped squared distances. -/
def dist : FVec Ideal ⟨2, ![a, b]⟩ .f32 :=
  maximumf (subf (addf (broadcastTo ⟨2, ![a, b]⟩ (shapeCast ⟨2, ![a, 1]⟩ P0 hc0) hb0)
      (broadcastTo ⟨2, ![a, b]⟩ (shapeCast ⟨2, ![1, b]⟩ P1 hc1) hb1))
    (mulf (broadcast ⟨2, ![a, b]⟩ (Scalar.ofBits .f32 0x40000000#32)) (shapeCast ⟨2, ![a, b]⟩ P2 hc2)))
    (broadcast ⟨2, ![a, b]⟩ (Scalar.ofBits .f32 0x00000000#32))

/-- Entry `(r, k)` of the distances: the cell of row `r`'s and column `k`'s squared norms and their inner product. -/
theorem dist_apply (r : Fin a) (k : Fin b) :
    dist hc0 hb0 hc1 hb1 hc2 P0 P1 P2 (ix2 r k)
      = SoftRows.cell two zero (P0 (ix2 r (0 : Fin 1))) (P1 (ix2 (0 : Fin 1) k)) (P2 (ix2 r k)) := by
  unfold dist SoftRows.cell
  rw [shapeCast_self, shapeCast_self, shapeCast_self]
  show max ((broadcastTo ⟨2, ![a, b]⟩ P0 hb0 (ix2 r k) + broadcastTo ⟨2, ![a, b]⟩ P1 hb1 (ix2 r k))
      - (Ideal.ofBits .f32 0x40000000#32 * P2 (ix2 r k))) (Ideal.ofBits .f32 0x00000000#32) = _
  rw [Cert.LibKernelIdx.broadcastTo_a1_ab_apply P0 hb0 r k 0, Cert.LibRowForms.broadcastTo_1b_ab_apply P1 hb1 r k 0]

/-- Row `r` of the distances as a function of the lane. -/
abbrev row (r : Fin a) : Fin b → EReal := fun k =>
  SoftRows.cell two zero (P0 (ix2 r (0 : Fin 1))) (P1 (ix2 (0 : Fin 1) k)) (P2 (ix2 r k))

/-- The rows' minima, as a vector of `a` entries. -/
def rowMin : FVec Ideal ⟨1, ![a]⟩ .f32 :=
  multiReduction .minimumf [1] ⟨1, ![a]⟩ (dist hc0 hb0 hc1 hb1 hc2 P0 P1 P2) 0x7F800000#32 hr hφ hmin

theorem rowMin_apply (r : Fin a) :
    rowMin hc0 hb0 hc1 hb1 hc2 hr hφ hmin P0 P1 P2 (ix1 r) = Finset.univ.inf (row P0 P1 P2 r) := by
  unfold rowMin
  rw [RowMin.multiReduction_minimumf_rows _ _ hr hφ hmin ofBits_posInf r]
  exact Finset.inf_congr rfl fun k _ => dist_apply hc0 hb0 hc1 hb1 hc2 P0 P1 P2 r k

/-- The exponentials `exp (m - d)`, the minimum kept as a column and repeated along the lanes. -/
def expo : FVec Ideal ⟨2, ![a, b]⟩ .f32 :=
  exp (subf (broadcastTo ⟨2, ![a, b]⟩ (shapeCast ⟨2, ![a, 1]⟩ (rowMin hc0 hb0 hc1 hb1 hc2 hr hφ hmin P0 P1 P2) hc3) hb0)
    (dist hc0 hb0 hc1 hb1 hc2 P0 P1 P2))

theorem expo_apply (r : Fin a) (k : Fin b) :
    expo hc0 hb0 hc1 hb1 hc2 hr hc3 hφ hmin P0 P1 P2 (ix2 r k)
      = Ideal.exp (Finset.univ.inf (row P0 P1 P2 r) - row P0 P1 P2 r k) := by
  unfold expo
  show Ideal.exp (broadcastTo ⟨2, ![a, b]⟩ (shapeCast ⟨2, ![a, 1]⟩ (rowMin hc0 hb0 hc1 hb1 hc2 hr hφ hmin P0 P1 P2) hc3) hb0 (ix2 r k)
      - dist hc0 hb0 hc1 hb1 hc2 P0 P1 P2 (ix2 r k)) = _
  rw [Cert.LibKernelIdx.broadcastTo_a1_ab_apply _ hb0 r k 0, Cert.LibKernelIdx.shapeCast_a_a1_apply _ hc3 r 0,
    rowMin_apply, dist_apply]

/-- The rows' sums of the exponentials. -/
def rowSum : FVec Ideal ⟨1, ![a]⟩ .f32 :=
  multiReduction .add [1] ⟨1, ![a]⟩ (expo hc0 hb0 hc1 hb1 hc2 hr hc3 hφ hmin P0 P1 P2) 0x00000000#32 hr hφ hadd

theorem rowSum_apply (r : Fin a) :
    rowSum hc0 hb0 hc1 hb1 hc2 hr hc3 hφ hmin hadd P0 P1 P2 (ix1 r)
      = ∑ k : Fin b, Ideal.exp (Finset.univ.inf (row P0 P1 P2 r) - row P0 P1 P2 r k) := by
  unfold rowSum
  rw [Cert.LibKernelIdx.laneSum_apply _ hr hφ hadd r]
  exact Finset.sum_congr rfl fun k _ => expo_apply hc0 hb0 hc1 hb1 hc2 hr hc3 hφ hmin P0 P1 P2 r k

/-- The body's stored value. -/
def body : FVec Ideal ⟨2, ![a, b]⟩ .f32 :=
  addf (divf (expo hc0 hb0 hc1 hb1 hc2 hr hc3 hφ hmin P0 P1 P2)
      (broadcastTo ⟨2, ![a, b]⟩ (shapeCast ⟨2, ![a, 1]⟩ (rowSum hc0 hb0 hc1 hb1 hc2 hr hc3 hφ hmin hadd P0 P1 P2) hc3) hb0))
    (broadcast ⟨2, ![a, b]⟩ (Scalar.ofBits .f32 0x2EDBE6FF#32))

/-- THE BODY AT AN ENTRY: the weights of row `r`'s distances, at lane `j`. -/
theorem body_apply (r : Fin a) (j : Fin b) :
    body hc0 hb0 hc1 hb1 hc2 hr hc3 hφ hmin hadd P0 P1 P2 (ix2 r j) = SoftRows.softMin cst (row P0 P1 P2 r) j := by
  unfold body SoftRows.softMin
  show Ideal.div (expo hc0 hb0 hc1 hb1 hc2 hr hc3 hφ hmin P0 P1 P2 (ix2 r j))
      (broadcastTo ⟨2, ![a, b]⟩ (shapeCast ⟨2, ![a, 1]⟩ (rowSum hc0 hb0 hc1 hb1 hc2 hr hc3 hφ hmin hadd P0 P1 P2) hc3) hb0 (ix2 r j))
      + Ideal.ofBits .f32 0x2EDBE6FF#32 = _
  rw [expo_apply, Cert.LibKernelIdx.broadcastTo_a1_ab_apply _ hb0 r j 0, Cert.LibKernelIdx.shapeCast_a_a1_apply _ hc3 r 0,
    rowSum_apply]

end Body

end SoftBody

end
-- ==== Proof.KernelValue.lean ====
/-
  What the kernel's result array holds after the run, as one function of the three arrays the region reads: the Gram
  matrix `T` (every inner product of two embedded points), the column `C` and the row `R` of squared norms.

  The grid has 50 points; point `t` works on rows `200 t … 200 t + 199`: it is handed those rows of `T` (all 10000
  columns), the same rows of the column `C`, and the whole row `R`, and writes back the same rows of the result. So
  entry `(p, j)` of the result depends on row `p` of `T` only, on `C` at `p` and on all of `R`: it is the weight
  `SoftRows.softMin` of row `p`'s clamped squared distances, at `j`. The 50 row blocks tile the array.
-/
import proofs.«120462_g1030792151698_week1_w1_993_13_alg».proof.Proof.KernelIdealBlocksP
import proofs.«120462_g1030792151698_week1_w1_993_13_alg».proof.Proof.LibSoftBody
import Idealize.ShloMosaic.Lib.Pipeline.Value
import Idealize.ShloMosaic.Lib.ValueIdx

noncomputable section

namespace Cert.KernelIdeal.RowsValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The specification over the three arrays -/

/-- Entry `(p, j)` of the result from the Gram matrix, the column and the row of squared norms. -/
def rowsOf (T : S10000x10000.Idx → EReal) (C : S10000x1.Idx → EReal) (R : S1x10000.Idx → EReal)
    (p : Fin 10000) (j : Fin 10000) : EReal :=
  SoftRows.softMin SoftRows.cst
    (fun k : Fin 10000 => SoftRows.cell SoftRows.two SoftRows.zero (C (ix2 p (0 : Fin 1))) (R (ix2 (0 : Fin 1) k)) (T (ix2 p k))) j

/-- The result array. -/
def G (T : S10000x10000.Idx → EReal) (C : S10000x1.Idx → EReal) (R : S1x10000.Idx → EReal) : S10000x10000.Idx → EReal :=
  fun i => rowsOf T C R (i 0) (i 1)

/-! ## The body's stored value at an entry of the block -/

theorem pay_apply (P0 : Vec Ideal S200x1 .f32) (P1 : Vec Ideal S1x10000 .f32) (P2 : Vec Ideal S200x10000 .f32)
    (r : Fin 200) (j : Fin 10000) :
    k0_pay1 (F := Ideal) P0 P1 P2 (ix2 r j) = SoftRows.softMin SoftRows.cst (SoftBody.row P0 P1 P2 r) j :=
  SoftBody.body_apply shapeCasts_S200x1_S200x1 broadcasts_S200x1_S200x10000 shapeCasts_S1x10000_S1x10000
    broadcasts_S1x10000_S200x10000 shapeCasts_S200x10000_S200x10000 reduces_S200x10000_S200 shapeCasts_S200_S200x1
    (.inl rfl) rfl rfl P0 P1 P2 r j

/-! ## The blocks a point is handed -/

theorem hz : (![0, 0] : Fin 2 → Nat) = fun _ => 0 := funext fun a => by fin_cases a <;> rfl

/-- The printed index maps, decided over the 50 points: the Gram block, the column block and the result block of
    point `t` are row block `t`; the row of squared norms is always block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s Gram block at `(r, k)` is the Gram matrix at row `200 t + r`, column `k`. -/
theorem iblk0_apply (c : Dev nD) (t : Fin cfg0.N) (r : Fin 200) (k : Fin 10000) (p : Fin 10000)
    (hp : p.val = t.val * 200 + r.val) :
    (iblk m c 0 t : Vec Ideal S200x10000 .f32) (ix2 r k) = (V m c main_v7 : S10000x10000.Idx → EReal) (ix2 p k) := by
  obtain ⟨e0, e1, -⟩ := idx_facts t
  unfold iblk
  rw [View.read_apply]
  show (V m c main_v7 : S10000x10000.Idx → EReal) _ = (V m c main_v7 : S10000x10000.Idx → EReal) _
  refine congrArg (V m c main_v7 : S10000x10000.Idx → EReal) (funext fun a => Fin.ext ?_)
  match a with
  | ⟨0, _⟩ => show win0_0.index t 0 * 200 + 1 * r.val = p.val; rw [e0, hp]; omega
  | ⟨1, _⟩ => show win0_0.index t 1 * 10000 + 1 * k.val = k.val; rw [e1]; omega

/-- Point `t`'s block of the column of squared norms at `(r, 0)` is the column at row `200 t + r`. -/
theorem iblk1_apply (c : Dev nD) (t : Fin cfg0.N) (r : Fin 200) (p : Fin 10000)
    (hp : p.val = t.val * 200 + r.val) :
    (iblk m c 1 t : Vec Ideal S200x1 .f32) (ix2 r (0 : Fin 1)) = (V m c main_v8 : S10000x1.Idx → EReal) (ix2 p (0 : Fin 1)) := by
  obtain ⟨-, -, e2, e3, -⟩ := idx_facts t
  unfold iblk
  rw [View.read_apply]
  show (V m c main_v8 : S10000x1.Idx → EReal) _ = (V m c main_v8 : S10000x1.Idx → EReal) _
  refine congrArg (V m c main_v8 : S10000x1.Idx → EReal) (funext fun a => Fin.ext ?_)
  match a with
  | ⟨0, _⟩ => show win0_1.index t 0 * 200 + 1 * r.val = p.val; rw [e2, hp]; omega
  | ⟨1, _⟩ => show win0_1.index t 1 * 1 + 1 * 0 = 0; rw [e3]

/-- Every point is handed the whole row of squared norms. -/
theorem iblk2_apply (c : Dev nD) (t : Fin cfg0.N) (k : Fin 10000) :
    (iblk m c 2 t : Vec Ideal S1x10000 .f32) (ix2 (0 : Fin 1) k) = (V m c main_v9 : S1x10000.Idx → EReal) (ix2 (0 : Fin 1) k) := by
  obtain ⟨-, -, -, -, e4, e5, -⟩ := idx_facts t
  unfold iblk
  rw [View.read_apply]
  show (V m c main_v9 : S1x10000.Idx → EReal) _ = (V m c main_v9 : S1x10000.Idx → EReal) _
  refine congrArg (V m c main_v9 : S1x10000.Idx → EReal) (funext fun a => Fin.ext ?_)
  match a with
  | ⟨0, _⟩ => show win0_2.index t 0 * 1 + 1 * 0 = 0; rw [e4]
  | ⟨1, _⟩ => show win0_2.index t 1 * 10000 + 1 * k.val = k.val; rw [e5]; omega

/-! ## What a point writes back, and the final array -/

/-- The stored value of point `t` at `(r, j)` is the specification at row `200 t + r`. -/
theorem stored_at (c : Dev nD) (t : Fin cfg0.N) (r : Fin 200) (j : Fin 10000) (p j' : Fin 10000)
    (hp : p.val = t.val * 200 + r.val) (hj : j'.val = j.val) :
    k0_pay1 (F := Ideal) (iblk m c 1 t : Vec Ideal S200x1 .f32) (iblk m c 2 t : Vec Ideal S1x10000 .f32)
        (iblk m c 0 t : Vec Ideal S200x10000 .f32) (ix2 r j)
      = rowsOf (V m c main_v7) (V m c main_v8) (V m c main_v9) p j' := by
  obtain rfl : j' = j := Fin.ext hj
  rw [pay_apply (iblk m c 1 t : Vec Ideal S200x1 .f32) (iblk m c 2 t : Vec Ideal S1x10000 .f32)
    (iblk m c 0 t : Vec Ideal S200x10000 .f32) r j']
  unfold rowsOf
  refine congrArg (fun d => SoftRows.softMin SoftRows.cst d j') (funext fun k => ?_)
  show SoftRows.cell SoftRows.two SoftRows.zero ((iblk m c 1 t : Vec Ideal S200x1 .f32) (ix2 r (0 : Fin 1)))
      ((iblk m c 2 t : Vec Ideal S1x10000 .f32) (ix2 (0 : Fin 1) k)) ((iblk m c 0 t : Vec Ideal S200x10000 .f32) (ix2 r k)) = _
  rw [iblk1_apply m c t r p hp, iblk2_apply m c t k, iblk0_apply m c t r k p hp]

/-- WHAT POINT `t` WRITES BACK is block `t` of `G` of the arrays as the region finds them. -/
theorem flushed_eq (c : Dev nD) (t : Fin cfg0.N) :
    (dats m 0 c).flushed 3 t
      = ((cfg0.win 3).blk t).view.read (Elt Ideal) (G (V m c main_v7) (V m c main_v8) (V m c main_v9)) := by
  rw [Cert.KernelIdeal.ValueP.flushed3]
  unfold out0_3
  rw [View.canon_unit_zero hz]
  simp only [View.ld_unit_zero (S := S200x10000) hz, View.ld_unit_zero (S := S200x1) hz, View.ld_unit_zero (S := S1x10000) hz]
  obtain ⟨-, -, -, -, -, -, e6, e7⟩ := idx_facts t
  funext y
  have hy0 : (y 0).val < 200 := (y 0).isLt
  have hy1 : (y 1).val < 10000 := (y 1).isLt
  refine (congrArg (k0_pay1 (F := Ideal) (iblk m c 1 t : Vec Ideal S200x1 .f32) (iblk m c 2 t : Vec Ideal S1x10000 .f32)
      (iblk m c 0 t : Vec Ideal S200x10000 .f32)) (eq_ix2 y)).trans ?_
  refine stored_at m c t ⟨(y 0).val, hy0⟩ ⟨(y 1).val, hy1⟩ _ _ ?_ ?_
  · show win0_3.index t (0 : Fin 2) * 200 + 1 * (y 0).val = t.val * 200 + (y 0).val
    rw [e6]; omega
  · show win0_3.index t (1 : Fin 2) * 10000 + 1 * (y 1).val = (y 1).val
    rw [e7]; omega

/-- An index of the array is in point `t`'s block iff each coordinate is in the block's range on its axis. -/
theorem mem_blk (t : Fin cfg0.N) (i : S10000x10000.Idx) :
    i ∈ ((cfg0.win 3).blk t).view.set ↔ ∀ a : Fin 2, win0_3.index t a * S200x10000.size a ≤ (i a).val ∧ (i a).val < win0_3.index t a * S200x10000.size a + S200x10000.size a := by
  show i ∈ ((View.whole main_v10).slice (win0_3.rect t)).set ↔ _
  rw [View.set_slice_whole, Rect.mem_set_unit]
  exact Iff.rfl

/-- Every index lies in the block of the point its row falls in. -/
theorem cover (i : S10000x10000.Idx) :
    ∃ t : Fin cfg0.N, (cfg0.win 3).flush t = true ∧ i ∈ ((cfg0.win 3).blk t).view.set := by
  have hi0 : (i 0).val < 10000 := (i 0).isLt
  have hi1 : (i 1).val < 10000 := (i 1).isLt
  have hN : cfg0.N = 50 := N_0
  let t : Fin cfg0.N := ⟨(i 0).val / 200, by rw [hN]; omega⟩
  obtain ⟨-, -, -, -, -, -, e6, e7⟩ := idx_facts t
  have htv : t.val = (i 0).val / 200 := rfl
  refine ⟨t, flush0_3 t, ?_⟩
  rw [mem_blk]
  intro a
  match a with
  | ⟨0, _⟩ => show win0_3.index t (0 : Fin 2) * 200 ≤ (i 0).val ∧ (i 0).val < win0_3.index t (0 : Fin 2) * 200 + 200; rw [e6, htv]; omega
  | ⟨1, _⟩ => show win0_3.index t (1 : Fin 2) * 10000 ≤ (i 1).val ∧ (i 1).val < win0_3.index t (1 : Fin 2) * 10000 + 10000; rw [e7]; omega

/-- THE ARRAY after the run is `G` of the arrays the region reads. -/
theorem final (c : Dev nD) :
    (dats m 0 c).arrAt 3 cfg0.N = G (V m c main_v7) (V m c main_v8) (V m c main_v9) :=
  (dats m 0 c).arrAt_eq_of_cover 3 (G (V m c main_v7) (V m c main_v8) (V m c main_v9)) (fun t _ => flushed_eq m c t) cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v10) = G (V m c main_v7) (V m c main_v8) (V m c main_v9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.ValueP.run_blocks m ρ)

end Cert.KernelIdeal.RowsValue

end
-- ==== Proof.KernelHost.lean ====
/-
  The three arrays the kernel's region reads, as the host operations before it leave them, at the ideal values.

  The host first embeds the points: `E = A · relu (A · (X · W1)) · W2`-shaped products of the four arguments (`emb`); then
  it forms the squared row norms `sqn E = ∑ q, E(p, q)²` (a product with itself summed along the rows, from zero), the
  Gram matrix `E · Eᵀ` spelt as ONE contraction of the second axis of `E` with the second axis of `E` (`gram`), and
  the norms once as a column and once as a row (two broadcasts). This module names those terms, shows that the region
  finds exactly them, and reads the Gram matrix, the column and the row at an entry:
  `gram E (p, k) = ∑ q, E(p, q) * E(k, q)`, column at `(p, 0)` and row at `(0, k)` the norm of `p`, of `k`.
-/
import proofs.«120462_g1030792151698_week1_w1_993_13_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-! ## The host's terms -/

/-- The embedded points as a function of the four arguments. -/
def emb (a0 : FVec Ideal S10000x10000 .f32) (a1 : FVec Ideal S10000x128 .f32) (a2 : FVec Ideal S128x64 .f32)
    (a3 : FVec Ideal S64x32 .f32) : FVec Ideal S10000x32 .f32 :=
  Host.dotGeneral (F := Ideal) dot_S10000x10000_S10000x32_S10000x32_1_0_0_1_n_n none a0
    (Host.dotGeneral (F := Ideal) dot_S10000x64_S64x32_S10000x32_1_0_0_1_n_n none
      (maximumf
        (Host.dotGeneral (F := Ideal) dot_S10000x10000_S10000x64_S10000x64_1_0_0_1_n_n none a0
          (Host.dotGeneral (F := Ideal) dot_S10000x128_S128x64_S10000x64_1_0_0_1_n_n none a1 a2))
        (broadcastInDim S10000x64 ![] bcast_S_S10000x64 (constant (F := Ideal) S_ .f32 0x00000000#32)))
      a3)

/-- The squared row norms of the embedded points. -/
def sqn (E : FVec Ideal S10000x32 .f32) : FVec Ideal S10000 .f32 :=
  Host.reduceAdd (F := Ideal) (mulf E E) (constant (F := Ideal) S_ .f32 0x00000000#32) reducesTo_S10000x32_S10000_d1 h_S_

/-- The Gram matrix: the second axis of `E` contracted with the second axis of `E`. -/
def gram (E : FVec Ideal S10000x32 .f32) : FVec Ideal S10000x10000 .f32 :=
  Host.dotGeneral (F := Ideal) dot_S10000x32_S10000x32_S10000x10000_1_1_0_0_n_n none E E

/-- The norms as a column and as a row. -/
def col (s : FVec Ideal S10000 .f32) : FVec Ideal S10000x1 .f32 := broadcastInDim S10000x1 ![0] bcast_S10000_S10000x1_0 s
def rowv (s : FVec Ideal S10000 .f32) : FVec Ideal S1x10000 .f32 := broadcastInDim S1x10000 ![1] bcast_S10000_S1x10000_1 s

/-! ## The region finds these terms -/

variable (m : (ℓ : Loc nD τ sig) → Buf (Elt Ideal) ℓ)

/-- The embedded points of the launch memory's arguments. -/
abbrev E (c : Dev nD) : FVec Ideal S10000x32 .f32 :=
  emb (m ((c : Thread nD τ).loc main_arg0)) (m ((c : Thread nD τ).loc main_arg1)) (m ((c : Thread nD τ).loc main_arg2))
    (m ((c : Thread nD τ).loc main_arg3))

theorem V_gram (c : Dev nD) : (V m c main_v7 : S10000x10000.Idx → EReal) = gram (E m c) := by
  dsimp only [V]
  simp only [hostOps0, hostOps0_1, hostOps0_2, List.flatten_cons, List.flatten_nil, List.append_nil, List.cons_append,
    List.nil_append]
  after_results
  rfl

theorem V_col (c : Dev nD) : (V m c main_v8 : S10000x1.Idx → EReal) = col (sqn (E m c)) := by
  dsimp only [V]
  simp only [hostOps0, hostOps0_1, hostOps0_2, List.flatten_cons, List.flatten_nil, List.append_nil, List.cons_append,
    List.nil_append]
  after_results
  rfl

theorem V_row (c : Dev nD) : (V m c main_v9 : S1x10000.Idx → EReal) = rowv (sqn (E m c)) := by
  dsimp only [V]
  simp only [hostOps0, hostOps0_1, hostOps0_2, List.flatten_cons, List.flatten_nil, List.append_nil, List.cons_append,
    List.nil_append]
  after_results
  rfl

/-! ## The three arrays at an entry -/

theorem col_apply (s : FVec Ideal S10000 .f32) (p : Fin 10000) (u : Fin 1) : col s (ix2 p u) = s (ix1 p) := by
  unfold col
  exact broadcastInDim_apply _ bcast_S10000_S10000x1_0 s (ix2 p u) (ix1 p) (fun a => match a with
    | ⟨0, _⟩ => by show p.val = if (10000 : Nat) = 1 then 0 else p.val; rw [if_neg (by decide)])

theorem rowv_apply (s : FVec Ideal S10000 .f32) (u : Fin 1) (k : Fin 10000) : rowv s (ix2 u k) = s (ix1 k) := by
  unfold rowv
  exact broadcastInDim_apply _ bcast_S10000_S1x10000_1 s (ix2 u k) (ix1 k) (fun a => match a with
    | ⟨0, _⟩ => by show k.val = if (10000 : Nat) = 1 then 0 else k.val; rw [if_neg (by decide)])

theorem lhs_gram_0 (i : S10000x10000.Idx) (q : dot_S10000x32_S10000x32_S10000x10000_1_1_0_0_n_n.contr.Idx) :
    (dot_S10000x32_S10000x32_S10000x10000_1_1_0_0_n_n.lhsIdx i q 0).val = (i 0).val := by
  unfold DotDims.lhsIdx
  rw [dif_neg (show ¬(0 : Fin S10000x32.rank) ∈ dot_S10000x32_S10000x32_S10000x10000_1_1_0_0_n_n.lhsBatch by decide), dif_pos (show (0 : Fin S10000x32.rank) ∈ dot_S10000x32_S10000x32_S10000x10000_1_1_0_0_n_n.lhsNonContracting by decide)]
  rfl
theorem lhs_gram_1 (i : S10000x10000.Idx) (q : dot_S10000x32_S10000x32_S10000x10000_1_1_0_0_n_n.contr.Idx) :
    (dot_S10000x32_S10000x32_S10000x10000_1_1_0_0_n_n.lhsIdx i q 1).val = (q ⟨0, by decide⟩).val :=
  dot_S10000x32_S10000x32_S10000x10000_1_1_0_0_n_n.lhsIdx_val_of_single rfl i q
theorem rhs_gram_0 (i : S10000x10000.Idx) (q : dot_S10000x32_S10000x32_S10000x10000_1_1_0_0_n_n.contr.Idx) :
    (dot_S10000x32_S10000x32_S10000x10000_1_1_0_0_n_n.rhsIdx i q 0).val = (i 1).val := by
  unfold DotDims.rhsIdx
  rw [dif_neg (show ¬(0 : Fin S10000x32.rank) ∈ dot_S10000x32_S10000x32_S10000x10000_1_1_0_0_n_n.rhsBatch by decide), dif_pos (show (0 : Fin S10000x32.rank) ∈ dot_S10000x32_S10000x32_S10000x10000_1_1_0_0_n_n.rhsNonContracting by decide)]
  rfl
theorem rhs_gram_1 (i : S10000x10000.Idx) (q : dot_S10000x32_S10000x32_S10000x10000_1_1_0_0_n_n.contr.Idx) :
    (dot_S10000x32_S10000x32_S10000x10000_1_1_0_0_n_n.rhsIdx i q 1).val = (q ⟨0, by decide⟩).val :=
  dot_S10000x32_S10000x32_S10000x10000_1_1_0_0_n_n.rhsIdx_val_of_single rfl i q

/-- The Gram matrix at `(p, k)` is the inner product of rows `p` and `k` of `E`. -/
theorem gram_apply (E : FVec Ideal S10000x32 .f32) (p k : Fin 10000) :
    gram E (ix2 p k) = ∑ q : Fin 32, E (ix2 p q) * E (ix2 k q) := by
  unfold gram
  simp only [Host.dotGeneral]
  rw [Ideal.dotGeneral_apply, ← Equiv.sum_comp (ValueIdx.contrEquiv1 dot_S10000x32_S10000x32_S10000x10000_1_1_0_0_n_n 32 rfl rfl).symm]
  refine Finset.sum_congr rfl fun q _ => ?_
  have hq := ValueIdx.contrEquiv1_symm_val dot_S10000x32_S10000x32_S10000x10000_1_1_0_0_n_n 32 rfl rfl q
  have el : dot_S10000x32_S10000x32_S10000x10000_1_1_0_0_n_n.lhsIdx (ix2 p k) ((ValueIdx.contrEquiv1 dot_S10000x32_S10000x32_S10000x10000_1_1_0_0_n_n 32 rfl rfl).symm q) = ix2 p q := funext fun a => Fin.ext (by
    match a with
    | ⟨0, _⟩ => exact lhs_gram_0 _ _
    | ⟨1, _⟩ => exact (lhs_gram_1 _ _).trans hq)
  have er : dot_S10000x32_S10000x32_S10000x10000_1_1_0_0_n_n.rhsIdx (ix2 p k) ((ValueIdx.contrEquiv1 dot_S10000x32_S10000x32_S10000x10000_1_1_0_0_n_n 32 rfl rfl).symm q) = ix2 k q := funext fun a => Fin.ext (by
    match a with
    | ⟨0, _⟩ => exact rhs_gram_0 _ _
    | ⟨1, _⟩ => exact (rhs_gram_1 _ _).trans hq)
  rw [el, er]

end Cert.KernelIdeal.HostSide

end
-- ==== Proof.LibMaskedMax.lean ====
import Idealize.ShloMosaic.Lib.ValueIdx
import Idealize.ShloMosaic.Lib.Pipeline.Value
import Idealize.ShloMosaic.PureOps
import Idealize.ShloMosaic.PureOps.Ideal.Laws
import Mathlib.Data.Finset.Lattice.Fold
import Mathlib.Data.Fintype.Lattice
import Mathlib.Order.Interval.Finset.Nat

noncomputable section

namespace MaskedMax

open Idealize.ShloMosaic Idealize.ShloMosaic.ValueIdx

/-! ## The column mask

A block of `n1` columns starts at column `t * c` of a longer row of length `L`; a column of the block is
inside the row exactly when its absolute position `t * c + k` is below `L`. The program computes the
absolute position in 32-bit words and compares it, signed, with the word of `L`; as long as every
position stays below `2 ^ 31` the words do not wrap and the signed comparison is the comparison of the
natural numbers. -/

/-- A one-bit word made from a Boolean is the bit `1` exactly when the Boolean is true. -/
theorem ofBool_eq_one_iff (b : Bool) : BitVec.ofBool b = 1#1 ↔ b = true := by
  cases b <;> decide

/-- The word of `a` times the word of `c`, plus the word of `b`, is the word of `a * c + b` (arithmetic of
    32-bit words is arithmetic modulo `2 ^ 32`, which the word of a natural number respects). -/
theorem word_mul_add (a c b : Nat) :
    BitVec.ofNat 32 a * BitVec.ofNat 32 c + BitVec.ofNat 32 b = BitVec.ofNat 32 (a * c + b) := by
  simp [BitVec.ofNat_add, BitVec.ofNat_mul]

/-- Below `2 ^ 31` the signed reading of the word of `n` is `n` itself. -/
theorem toInt_word (n : Nat) (h : n < 2 ^ 31) : (BitVec.ofNat 32 n).toInt = (n : Int) := by
  rw [BitVec.toInt_eq_toNat_of_lt (by simp; omega)]
  simp; omega

/-- Below `2 ^ 31` the signed comparison of two words is the comparison of the numbers. -/
theorem word_slt_iff (n L : Nat) (hn : n < 2 ^ 31) (hL : L < 2 ^ 31) :
    (BitVec.ofNat 32 n).slt (BitVec.ofNat 32 L) = true ↔ n < L := by
  rw [BitVec.slt_iff_toInt_lt, toInt_word n hn, toInt_word L hL]
  omega

/-- THE COLUMN MASK. On a block of shape `[n0, n1]`, the vector "block offset `t * c` plus the column's
    number within the block, compared signed-below with `L`" has the bit `1` at an index exactly when the
    column's absolute position `t * c + k` is below `L` — provided the positions of the block (`hb`) and
    the bound `L` (`hL`) stay below `2 ^ 31`, where 32-bit words neither wrap nor read as negative. -/
theorem colMask_eq_one_iff {n0 n1 : Nat} (h : (⟨2, ![n0, n1]⟩ : Shape).Iotas .tc 32 [1]) (t c L : Nat)
    (hb : t * c + n1 ≤ 2 ^ 31) (hL : L < 2 ^ 31) (j : (⟨2, ![n0, n1]⟩ : Shape).Idx) :
    cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L)) j = 1#1
      ↔ t * c + (j 1).val < L := by
  have hj : (j 1).val < n1 := idx2_lt1 j
  show BitVec.ofBool ((BitVec.ofNat 32 t * BitVec.ofNat 32 c + BitVec.ofNat 32 (0 * n1 + (j 1).val)).slt
      (BitVec.ofNat 32 L)) = 1#1 ↔ _
  rw [ofBool_eq_one_iff, word_mul_add, word_slt_iff _ _ (by omega) hL]
  omega

/-- THE MASKED BLOCK, at any float instance (or none): selecting `x` under the column mask and `y`
    elsewhere reads `x` at the columns inside the row and `y` at the columns past its end. -/
theorem select_colMask_apply {α : Type} {n0 n1 : Nat} (h : (⟨2, ![n0, n1]⟩ : Shape).Iotas .tc 32 [1]) (t c L : Nat)
    (hb : t * c + n1 ≤ 2 ^ 31) (hL : L < 2 ^ 31) (x y : (⟨2, ![n0, n1]⟩ : Shape).Idx → α)
    (j : (⟨2, ![n0, n1]⟩ : Shape).Idx) :
    select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x y j
      = if t * c + (j 1).val < L then x j else y j := by
  rw [select_apply]
  by_cases hlt : t * c + (j 1).val < L
  · rw [(colMask_eq_one_iff h t c L hb hL j).mpr hlt, select_one, if_pos hlt]
  · rw [eq_zero_of_ne_one (fun e => hlt ((colMask_eq_one_iff h t c L hb hL j).mp e)), select_zero, if_neg hlt]

/-- Two blocks that agree at every column inside the row give the same masked block: the columns past the
    row's end are replaced by `y` in both. -/
theorem select_colMask_congr {α : Type} {n0 n1 : Nat} (h : (⟨2, ![n0, n1]⟩ : Shape).Iotas .tc 32 [1]) (t c L : Nat)
    (hb : t * c + n1 ≤ 2 ^ 31) (hL : L < 2 ^ 31) (x x' y : (⟨2, ![n0, n1]⟩ : Shape).Idx → α)
    (hx : ∀ j : (⟨2, ![n0, n1]⟩ : Shape).Idx, t * c + (j 1).val < L → x j = x' j) :
    select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x y
      = select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x' y := by
  funext j
  rw [select_colMask_apply h t c L hb hL, select_colMask_apply h t c L hb hL]
  by_cases hlt : t * c + (j 1).val < L
  · rw [if_pos hlt, if_pos hlt, hx j hlt]
  · rw [if_neg hlt, if_neg hlt]

/-! ## Suprema: a fold of `max` from `⊥`, blocks, and a running maximum -/

section Sup
variable {α : Type*} [LinearOrder α] [OrderBot α]

/-- A fold of `max` from `⊥` over a finite set is the supremum over it. -/
theorem fold_max_bot_eq_sup {ι : Type*} (s : Finset ι) (f : ι → α) : s.fold max ⊥ f = s.sup f := by
  induction s using Finset.cons_induction with
  | empty => rw [Finset.fold_empty, Finset.sup_empty]
  | cons a s ha ih => rw [Finset.fold_cons, Finset.sup_cons, ih]

/-- A supremum over the naturals below `n` is the supremum over `Fin n`. -/
theorem sup_range_eq_sup_fin (n : Nat) (g : Nat → α) :
    (Finset.range n).sup g = Finset.univ.sup fun s : Fin n => g s.val := by
  apply le_antisymm
  · exact Finset.sup_le fun m hm =>
      Finset.le_sup (f := fun s : Fin n => g s.val) (Finset.mem_univ (⟨m, Finset.mem_range.mp hm⟩ : Fin n))
  · exact Finset.sup_le fun s _ => Finset.le_sup (f := g) (Finset.mem_range.mpr s.isLt)

/-- THE BLOCKED SUPREMUM. Cut `Fin n` into `T` consecutive blocks of length `B` that together cover it
    (`n ≤ T * B`; the last blocks may overhang, and an overhanging position counts as `⊥`): the supremum of
    the blocks' suprema is the supremum over `Fin n`. -/
theorem sup_blocks {n T B : Nat} (hn : n ≤ T * B) (f : Fin n → α) :
    (Finset.univ.sup fun t : Fin T => Finset.univ.sup fun k : Fin B =>
        if h : t.val * B + k.val < n then f ⟨t.val * B + k.val, h⟩ else ⊥) = Finset.univ.sup f := by
  apply le_antisymm
  · refine Finset.sup_le fun t _ => Finset.sup_le fun k _ => ?_
    by_cases h : t.val * B + k.val < n
    · rw [dif_pos h]; exact Finset.le_sup (f := f) (Finset.mem_univ _)
    · rw [dif_neg h]; exact bot_le
  · refine Finset.sup_le fun m _ => ?_
    have hm : m.val < n := m.isLt
    have hB : 0 < B := by
      rcases Nat.eq_zero_or_pos B with h0 | h0
      · subst h0; omega
      · exact h0
    have ht : m.val / B < T := by
      apply Nat.div_lt_of_lt_mul
      rw [Nat.mul_comm]; omega
    have hk : m.val % B < B := Nat.mod_lt _ hB
    have hsum : m.val / B * B + m.val % B = m.val := Nat.div_add_mod' _ _
    have hlt : m.val / B * B + m.val % B < n := by omega
    have e : f m = (fun k : Fin B => if h : m.val / B * B + k.val < n then f ⟨m.val / B * B + k.val, h⟩ else ⊥)
        ⟨m.val % B, hk⟩ := by
      show f m = if h : m.val / B * B + m.val % B < n then f ⟨m.val / B * B + m.val % B, h⟩ else ⊥
      rw [dif_pos hlt]
      exact congrArg f (Fin.ext hsum.symm)
    rw [e]
    exact (Finset.le_sup (f := fun k : Fin B =>
        if h : m.val / B * B + k.val < n then f ⟨m.val / B * B + k.val, h⟩ else ⊥) (Finset.mem_univ _)).trans
      (Finset.le_sup (f := fun t : Fin T => Finset.univ.sup fun k : Fin B =>
        if h : t.val * B + k.val < n then f ⟨t.val * B + k.val, h⟩ else ⊥) (Finset.mem_univ (⟨m.val / B, ht⟩ : Fin T)))

/-- The blocked supremum with the blocks numbered by the naturals below `T`. -/
theorem sup_blocks_range {n T B : Nat} (hn : n ≤ T * B) (f : Fin n → α) :
    ((Finset.range T).sup fun s : ℕ => Finset.univ.sup fun k : Fin B =>
        if h : s * B + k.val < n then f ⟨s * B + k.val, h⟩ else ⊥) = Finset.univ.sup f := by
  rw [sup_range_eq_sup_fin]
  exact sup_blocks hn f

/-- THE RUNNING MAXIMUM. A sequence that starts at `max ⊥ (g 0)` and at each step takes the maximum of
    its previous value and the next `g` is, at step `t`, the supremum of `g` over the steps up to `t`. -/
theorem running_max_eq_sup (acc g : Nat → α) (h0 : acc 0 = max ⊥ (g 0))
    (hs : ∀ t, acc (t + 1) = max (acc t) (g (t + 1))) (t : Nat) :
    acc t = (Finset.range (t + 1)).sup g := by
  induction t with
  | zero =>
    rw [h0, Finset.range_add_one, Finset.sup_insert, Finset.range_zero, Finset.sup_empty]
    exact max_comm _ _
  | succ t ih =>
    rw [hs, ih, Finset.range_add_one (n := t + 1), Finset.sup_insert]
    exact max_comm _ _

/-- The running maximum as a supremum over `Fin (t + 1)`. -/
theorem running_max_eq_sup_fin (acc g : Nat → α) (h0 : acc 0 = max ⊥ (g 0))
    (hs : ∀ t, acc (t + 1) = max (acc t) (g (t + 1))) (t : Nat) :
    acc t = Finset.univ.sup fun s : Fin (t + 1) => g s.val := by
  rw [running_max_eq_sup acc g h0 hs t, sup_range_eq_sup_fin]

end Sup

/-! ## A row maximum at the ideal values, and the column shape cast -/

section Rows
variable {β : Type}

/-- An `[a]` vector cast to the column `[a, 1]` reads, at `(i, u)`, the operand at `i`, whatever the unit
    coordinate `u`. -/
theorem shapeCast_a_a1_apply {a : ℕ} (x : (⟨1, ![a]⟩ : Shape).Idx → β)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Over the second axis of a rank-2 shape, the source index above row `r` with coordinate `k` inserted is
    `(r, k)`. -/
theorem lift_axis1 {n0 n1 : Nat} (h : (⟨2, ![n0, n1]⟩ : Shape).Reduces [1] ⟨1, ![n0]⟩) (r : Fin n0) (k : Fin n1) :
    h.lift (ix1 r) k = ix2 r k := by
  funext a
  match a with
  | ⟨0, _⟩ => exact Fin.ext rfl
  | ⟨1, _⟩ => exact Fin.ext rfl

/-- A ROW MAXIMUM at the ideal values: a `maximumf` reduction of an `[n0, n1]` vector over its second axis,
    from an accumulator pattern that denotes `⊥`, is at row `r` the supremum of the row's entries. -/
theorem multiReduction_maximumf_rows {φ : FTy} {n0 n1 : Nat} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.maximumf.neutral φ hφ) (hbot : Ideal.ofBits φ acc = ⊥) (r : Fin n0) :
    multiReduction .maximumf [1] ⟨1, ![n0]⟩ src acc h hφ hacc (ix1 r)
      = Finset.univ.sup fun k : Fin n1 => src (ix2 r k) := by
  refine (Ideal.multiReduction_maximumf_single src acc h hφ hacc (ix1 r)).trans ?_
  have hb : FloatOps.ofBits (F := Ideal) φ acc = (⊥ : EReal) := hbot
  rw [hb, fold_max_bot_eq_sup]
  show (Finset.univ : Finset (Fin n1)).sup (fun k => src (h.lift (ix1 r) k)) = _
  refine Finset.sup_congr rfl fun k _ => ?_
  rw [lift_axis1]

/-- The same for a host `reduce` with a `maximumf` body over the second axis, from an initial value that is `⊥`:
    at row `r` it is the supremum of the row's entries. -/
theorem hostReduce_maximumf_rows {φ : FTy} {u : Shape} {n0 n1 : Nat} (x : FVec Ideal ⟨2, ![n0, n1]⟩ φ)
    (init : FVec Ideal u φ) (h' : (⟨2, ![n0, n1]⟩ : Shape).ReducesTo [1] ⟨1, ![n0]⟩)
    (h : (⟨2, ![n0, n1]⟩ : Shape).Reduces [1] ⟨1, ![n0]⟩) (hu : 0 < u.numel)
    (hbot : init (Shape.Idx.first hu) = ⊥) (r : Fin n0) :
    Host.reduce (FloatOps.maximumf (F := Ideal) (φ := φ)) x init h' hu (ix1 r)
      = Finset.univ.sup fun k : Fin n1 => x (ix2 r k) := by
  refine (Host.reduce_eq_fold_single (FloatOps.maximumf (F := Ideal) (φ := φ)) x init h' h hu (ix1 r)).trans ?_
  rw [hbot]
  show (Finset.univ : Finset (Fin ((⟨2, ![n0, n1]⟩ : Shape).size 1))).fold max (⊥ : EReal) (x ∘ h.lift (ix1 r)) = _
  rw [fold_max_bot_eq_sup]
  show (Finset.univ : Finset (Fin n1)).sup (fun k => x (h.lift (ix1 r) k)) = _
  refine Finset.sup_congr rfl fun k _ => ?_
  rw [lift_axis1]

end Rows

end MaskedMax

end
-- ==== Proof.RefRows.lean ====
/-
  The reference's result at an entry, at the ideal values, read one host operation at a time.

  With `E` the embedded points and `SQ` their squared row norms (two stages of the reference's run that are left
  unopened), the reference forms the clamped squared distances `d(p, k) = max ((SQ p + SQ k) - 2 * ∑ q, E(p,q) * E(k,q)) 0`
  — the inner products by a transpose followed by a product, which at an entry is the same sum —, negates them, takes
  each row's maximum (a `maximum` reduction from `-∞`, guarded once more by `-∞`), subtracts it, exponentiates, sums
  each row from zero, divides and adds the constant: the softmax of row `p` of the negated distances, at `j`.
-/
import proofs.«120462_g1030792151698_week1_w1_993_13_alg».proof.Proof.Gen.ReferenceIdeal.Read
import proofs.«120462_g1030792151698_week1_w1_993_13_alg».proof.Proof.LibMaskedMax
import proofs.«120462_g1030792151698_week1_w1_993_13_alg».proof.Proof.SoftRows
import Idealize.ShloMosaic.Lib.ValueIdx
import Idealize.ShloMosaic.PureOps.Ideal.Laws

noncomputable section

open scoped BigOperators

namespace Cert.ReferenceIdeal.RefRows

open Cert.ReferenceIdeal Cert.ReferenceIdeal.Gen Cert.ReferenceIdeal.Read Idealize.ShloMosaic Idealize.ShloMosaic.TcCoe
open Idealize.ShloMosaic.ValueIdx

variable (x0 : (⟨S10000x10000, .f32⟩ : BufTy).Contents (Elt Ideal)) (x1 : (⟨S10000x128, .f32⟩ : BufTy).Contents (Elt Ideal))
  (x2 : (⟨S128x64, .f32⟩ : BufTy).Contents (Elt Ideal)) (x3 : (⟨S64x32, .f32⟩ : BufTy).Contents (Elt Ideal))

/-- Row `p` of the clamped squared distances, from the embedded points and their squared norms. -/
abbrev drow (p : Fin 10000) : Fin 10000 → EReal := fun k =>
  SoftRows.cell SoftRows.two SoftRows.zero (val_main_v6 (F := Ideal) x0 x1 x2 x3 (ix1 p)) (val_main_v6 (F := Ideal) x0 x1 x2 x3 (ix1 k))
    (∑ q : Fin 32, val_main_v4 (F := Ideal) x0 x1 x2 x3 (ix2 p q) * val_main_v4 (F := Ideal) x0 x1 x2 x3 (ix2 k q))

/-- The clamped distances at `(p, k)`. -/
theorem dist_apply (p k : Fin 10000) : val_main_v17 (F := Ideal) x0 x1 x2 x3 (ix2 p k) = drow x0 x1 x2 x3 p k := by
  have i7 : idx_main_v7 (idx_main_v9 (ix2 p k)) = ix1 p := funext fun a => Fin.ext (by match a with | ⟨0, _⟩ => rfl)
  have i8 : idx_main_v8 (idx_main_v10 (ix2 p k)) = ix1 k := funext fun a => Fin.ext (by match a with | ⟨0, _⟩ => rfl)
  have il : ∀ q : Fin 32, lidx_main_v13 (ix2 p k) q = ix2 p q := fun q =>
    funext fun a => Fin.ext (by match a with | ⟨0, _⟩ => rfl | ⟨1, _⟩ => rfl)
  have ir : ∀ q : Fin 32, idx_main_v12 (ridx_main_v13 (ix2 p k) q) = ix2 k q := fun q =>
    funext fun a => Fin.ext (by match a with | ⟨0, _⟩ => rfl | ⟨1, _⟩ => rfl)
  rw [val_main_v17_apply, val_main_v16_apply, val_main_v11_apply, val_main_v9_apply, val_main_v7_apply, val_main_v10_apply,
    val_main_v8_apply, val_main_v15_apply, val_main_v14_apply, val_main_cst_0_apply, val_main_v13_apply,
    val_main_call1_v0_apply, val_main_call1_cst_apply, i7, i8]
  simp only [val_main_v12_apply, il, ir]
  rfl

/-- The negated distances. -/
theorem neg_apply (p k : Fin 10000) : val_main_v18 (F := Ideal) x0 x1 x2 x3 (ix2 p k) = -drow x0 x1 x2 x3 p k := by
  rw [val_main_v18_apply, dist_apply]
  rfl

/-- The guarded row maximum of the negated distances. -/
theorem rowMax_apply (p : Fin 10000) :
    val_main_v21 (F := Ideal) x0 x1 x2 x3 (ix1 p) = max ⊥ (Finset.univ.sup fun k : Fin 10000 => -drow x0 x1 x2 x3 p k) := by
  have hbot : val_main_cst_1 (F := Ideal) (Shape.Idx.first h_S_) = (⊥ : EReal) := SoftRows.ofBits_negInf
  have h19 : val_main_v19 (F := Ideal) x0 x1 x2 x3 (ix1 p) = Finset.univ.sup fun k : Fin 10000 => -drow x0 x1 x2 x3 p k := by
    unfold val_main_v19
    refine (MaskedMax.hostReduce_maximumf_rows (n0 := 10000) (n1 := 10000) (φ := .f32) (val_main_v18 (F := Ideal) x0 x1 x2 x3)
      (val_main_cst_1 (F := Ideal)) reducesTo_S10000x10000_S10000_d1 (by decide) h_S_ hbot p).trans ?_
    exact Finset.sup_congr rfl fun k _ => neg_apply x0 x1 x2 x3 p k
  rw [val_main_v21_apply, val_main_v20_apply, val_main_cst_2_apply, h19]
  show max (Ideal.ofBits .f32 0xFF800000#32) _ = _
  rw [SoftRows.ofBits_negInf]

/-- The exponentials. -/
theorem exp_apply (p k : Fin 10000) :
    val_main_v25 (F := Ideal) x0 x1 x2 x3 (ix2 p k)
      = Ideal.exp (-drow x0 x1 x2 x3 p k - max ⊥ (Finset.univ.sup fun k' : Fin 10000 => -drow x0 x1 x2 x3 p k')) := by
  have i22 : idx_main_v22 (idx_main_v23 (ix2 p k)) = ix1 p := funext fun a => Fin.ext (by match a with | ⟨0, _⟩ => rfl)
  rw [val_main_v25_apply, val_main_v24_apply, val_main_v23_apply, val_main_v22_apply, i22, rowMax_apply, neg_apply]
  rfl

/-- The row sums of the exponentials (from zero). -/
theorem sum_apply (p : Fin 10000) :
    val_main_v26 (F := Ideal) x0 x1 x2 x3 (ix1 p)
      = ∑ k : Fin 10000, Ideal.exp (-drow x0 x1 x2 x3 p k - max ⊥ (Finset.univ.sup fun k' : Fin 10000 => -drow x0 x1 x2 x3 p k')) := by
  have i26 : ∀ k : Fin 10000, idx_main_v26 (ix1 p) k = ix2 p k := fun k =>
    funext fun a => Fin.ext (by match a with | ⟨0, _⟩ => rfl | ⟨1, _⟩ => rfl)
  rw [val_main_v26_apply, val_main_cst_3_apply]
  simp only [i26, exp_apply]
  show Ideal.ofBits .f32 0x00000000#32 + _ = _
  rw [Ideal.ofBits_zero_f32, zero_add]

/-- THE REFERENCE AT AN ENTRY: the softmax of row `p` of the negated distances, at `j`. -/
theorem result_apply (p j : Fin 10000) :
    val_main_v31 (F := Ideal) x0 x1 x2 x3 (ix2 p j) = SoftRows.softMax SoftRows.cst (fun k => -drow x0 x1 x2 x3 p k) j := by
  have i27 : idx_main_v27 (idx_main_v28 (ix2 p j)) = ix1 p := funext fun a => Fin.ext (by match a with | ⟨0, _⟩ => rfl)
  rw [val_main_v31_apply, val_main_v30_apply, val_main_cst_4_apply, val_main_v29_apply, val_main_v28_apply, val_main_v27_apply,
    i27, sum_apply, exp_apply]
  rfl

end Cert.ReferenceIdeal.RefRows

end
-- ==== Proof.Bridge.lean ====
/-
  The two results are one function of the arguments.

  The kernel's program and the reference embed the points by the same host operations and take the same squared row
  norms; the reference's transpose-then-product and the kernel program's contraction of second axis with second axis
  are the same sum `∑ q, E(p, q) * E(k, q)` at every entry. So row `p` of clamped squared distances is the same row on
  both sides, and the reference's softmax of the negated row is the kernel's weights of the row (`SoftRows.softMax_neg`).
-/
import proofs.«120462_g1030792151698_week1_w1_993_13_alg».proof.Proof.KernelValue
import proofs.«120462_g1030792151698_week1_w1_993_13_alg».proof.Proof.KernelHost
import proofs.«120462_g1030792151698_week1_w1_993_13_alg».proof.Proof.RefRows

noncomputable section

open scoped BigOperators

namespace Cert.Bridge

open Idealize.ShloMosaic Idealize.ShloMosaic.ValueIdx
open Cert.KernelIdeal.HostSide Cert.KernelIdeal.RowsValue

/-- The reference's embedded points and squared norms are the kernel program's: the same host operations, written
    once in each program's vocabulary. -/
theorem emb_eq (a0 : FVec Ideal Cert.KernelIdeal.S10000x10000 .f32) (a1 : FVec Ideal Cert.KernelIdeal.S10000x128 .f32)
    (a2 : FVec Ideal Cert.KernelIdeal.S128x64 .f32) (a3 : FVec Ideal Cert.KernelIdeal.S64x32 .f32) :
    Cert.ReferenceIdeal.Read.val_main_v4 (F := Ideal) a0 a1 a2 a3 = emb a0 a1 a2 a3 := rfl

theorem sqn_eq (a0 : FVec Ideal Cert.KernelIdeal.S10000x10000 .f32) (a1 : FVec Ideal Cert.KernelIdeal.S10000x128 .f32)
    (a2 : FVec Ideal Cert.KernelIdeal.S128x64 .f32) (a3 : FVec Ideal Cert.KernelIdeal.S64x32 .f32) :
    Cert.ReferenceIdeal.Read.val_main_v6 (F := Ideal) a0 a1 a2 a3 = sqn (emb a0 a1 a2 a3) := rfl

/-- The reference's result IS the kernel's result array, as functions of the four arguments. -/
theorem result_eq (a0 : FVec Ideal Cert.KernelIdeal.S10000x10000 .f32) (a1 : FVec Ideal Cert.KernelIdeal.S10000x128 .f32)
    (a2 : FVec Ideal Cert.KernelIdeal.S128x64 .f32) (a3 : FVec Ideal Cert.KernelIdeal.S64x32 .f32) :
    Cert.ReferenceIdeal.Read.val_main_v31 (F := Ideal) a0 a1 a2 a3
      = G (gram (emb a0 a1 a2 a3)) (col (sqn (emb a0 a1 a2 a3))) (rowv (sqn (emb a0 a1 a2 a3))) := by
  funext i
  obtain ⟨p, j, rfl⟩ : ∃ (p : Fin 10000) (j : Fin 10000), i = ix2 p j := ⟨i 0, i 1, eq_ix2 i⟩
  refine (Cert.ReferenceIdeal.RefRows.result_apply a0 a1 a2 a3 p j).trans ?_
  rw [SoftRows.softMax_neg]
  show SoftRows.softMin SoftRows.cst (Cert.ReferenceIdeal.RefRows.drow a0 a1 a2 a3 p) j
    = rowsOf (gram (emb a0 a1 a2 a3)) (col (sqn (emb a0 a1 a2 a3))) (rowv (sqn (emb a0 a1 a2 a3))) p j
  unfold rowsOf
  refine congrArg (fun d => SoftRows.softMin SoftRows.cst d j) (funext fun k => ?_)
  rw [col_apply, rowv_apply, gram_apply]
  show SoftRows.cell SoftRows.two SoftRows.zero (Cert.ReferenceIdeal.Read.val_main_v6 (F := Ideal) a0 a1 a2 a3 (ix1 p))
      (Cert.ReferenceIdeal.Read.val_main_v6 (F := Ideal) a0 a1 a2 a3 (ix1 k))
      (∑ q : Fin 32, Cert.ReferenceIdeal.Read.val_main_v4 (F := Ideal) a0 a1 a2 a3 (ix2 p q)
        * Cert.ReferenceIdeal.Read.val_main_v4 (F := Ideal) a0 a1 a2 a3 (ix2 k q)) = _
  rw [sqn_eq, emb_eq]

end Cert.Bridge

end
-- ==== Proof.lean ====
/-
  The certificate of a row-softmax kernel over pairwise squared distances against its jnp reference.

  Both programs embed 10000 points by the same four matrix products (`E`, 32 coordinates a point), take the squared
  row norms `sq` and the Gram matrix `E · Eᵀ`, and return, for every row `p`, the weights
  `softmax_j (- max (sq p + sq j - 2 * <E p, E j>) 0) + c`. The kernel's program leaves the embedding, the norms and the
  Gram matrix to the host and runs one kernel over 50 blocks of 200 rows that computes each row's weights as
  `exp (m - d) / ∑ exp (m - d) + c` with `m` the row's SMALLEST distance; the reference subtracts the LARGEST negated
  distance. On the extended reals the two agree entry by entry (negation reverses the order and `-d - (-m) = m - d`);
  no finiteness of the inputs is used. The idealization rewrote nothing, so `preserves` is `True`.

  The frames of the two kernel programs and the reference's run are the generated ones; the kernel's value is read off
  its frame run block by block (Proof/KernelValue.lean), the arrays the region finds off the host operations
  (Proof/KernelHost.lean), the reference's result one operation at a time (Proof/RefRows.lean), and the two are joined
  in Proof/Bridge.lean over the row specification of Proof/SoftRows.lean.
-/
import proofs.«120462_g1030792151698_week1_w1_993_13_alg».proof.Defs
import proofs.«120462_g1030792151698_week1_w1_993_13_alg».proof.Proof.Gen.Kernel
import proofs.«120462_g1030792151698_week1_w1_993_13_alg».proof.Proof.Gen.Kernel.Skeleton
import proofs.«120462_g1030792151698_week1_w1_993_13_alg».proof.Proof.Gen.Kernel.Launch
import proofs.«120462_g1030792151698_week1_w1_993_13_alg».proof.Proof.Gen.Kernel.Points
import proofs.«120462_g1030792151698_week1_w1_993_13_alg».proof.Proof.Gen.Kernel.Frame
import proofs.«120462_g1030792151698_week1_w1_993_13_alg».proof.Proof.Gen.KernelIdeal
import proofs.«120462_g1030792151698_week1_w1_993_13_alg».proof.Proof.Gen.KernelIdeal.Skeleton
import proofs.«120462_g1030792151698_week1_w1_993_13_alg».proof.Proof.Gen.KernelIdeal.Launch
import proofs.«120462_g1030792151698_week1_w1_993_13_alg».proof.Proof.Gen.KernelIdeal.Points
import proofs.«120462_g1030792151698_week1_w1_993_13_alg».proof.Proof.Gen.KernelIdeal.Frame
import proofs.«120462_g1030792151698_week1_w1_993_13_alg».proof.Proof.Gen.ReferenceIdeal
import proofs.«120462_g1030792151698_week1_w1_993_13_alg».proof.Proof.Gen.Pre_finite_inputs
import proofs.«120462_g1030792151698_week1_w1_993_13_alg».proof.Proof.Gen.ReferenceIdeal.Run
import proofs.«120462_g1030792151698_week1_w1_993_13_alg».proof.Proof.Gen.ReferenceIdeal.Read
import proofs.«120462_g1030792151698_week1_w1_993_13_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result array ends at the row weights of the arrays its region reads, which are the host's terms of
    the arguments; the reference's result is the same function of arguments that agree. -/
theorem algebraic : Cert.algebraic_KernelIdeal_ReferenceIdeal := by
  intro m ρ m' ρ' _ hagree
  refine ⟨fun c => Cert.KernelIdeal.RowsValue.G (Cert.KernelIdeal.Gen.V m c Cert.KernelIdeal.main_v7)
    (Cert.KernelIdeal.Gen.V m c Cert.KernelIdeal.main_v8) (Cert.KernelIdeal.Gen.V m c Cert.KernelIdeal.main_v9),
    Cert.KernelIdeal.RowsValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2]
  beta_reduce
  rw [Cert.KernelIdeal.HostSide.V_gram, Cert.KernelIdeal.HostSide.V_col, Cert.KernelIdeal.HostSide.V_row]
  exact Cert.Bridge.result_eq _ _ _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
